-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x64 : Shape := ⟨3, ![8, 2048, 64]⟩
abbrev S8x2048x2048 : Shape := ⟨3, ![8, 2048, 2048]⟩
abbrev S_ : Shape := ⟨0, ![]⟩

class Facts : Prop where
  bcast_S_S8x2048x64 : S_.BroadcastsInDim S8x2048x64 (![] : Fin 0 → Fin S8x2048x64.rank)
  reducesTo_S8x2048x64_S_d0_1_2 : S8x2048x64.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_

variable [Facts]

def fn_part1 {F : FTy → Type} [FloatOps F] (main_v13 : IVec S_ 1) (main_v16 : IVec S8x2048x2048 1) : IVec S_ 1 :=
  let main_c_5 : IVec S_ 1 := constantI S_ 1 1#1
  let main_v17 : IVec S_ 1 := (fun x v => Host.reduce IntOp.andi x v reducesTo_S8x2048x2048_S_d0_1_2 h_S_) main_v16 main_c_5
  let main_v18 : IVec S_ 1 := andi main_v13 main_v17
  main_v18

def fn {F : FTy → Type} [FloatOps F] (main_arg0 : FVec F S8x2048x64 .f32) (main_arg1 : FVec F S8x2048x64 .f32) (main_arg2 : FVec F S8x2048x64 .f32) (main_arg3 : FVec F S8x2048x2048 .f32) : IVec S_ 1 :=
  let main_v0 : FVec F S8x2048x64 .f32 := Host.absf main_arg0
  let main_cst : FVec F S_ .f32 := constant S_ .f32 0x7F800000#32
  let main_v1 : FVec F S8x2048x64 .f32 := broadcastInDim S8x2048x64 ![] bcast_S_S8x2048x64 main_cst
  let main_v2 : IVec S8x2048x64 1 := cmpf .olt main_v0 main_v1
  let main_c : IVec S_ 1 := constantI S_ 1 1#1
  let main_v3 : IVec S_ 1 := (fun x v => Host.reduce IntOp.andi x v reducesTo_S8x2048x64_S_d0_1_2 h_S_) main_v2 main_c
  let main_v4 : FVec F S8x2048x64 .f32 := Host.absf main_arg1
  let main_cst_0 : FVec F S_ .f32 := constant S_ .f32 0x7F800000#32
  let main_v5 : FVec F S8x2048x64 .f32 := broadcastInDim S8x2048x64 ![] bcast_S_S8x2048x64 main_cst_0
  let main_v6 : IVec S8x2048x64 1 := cmpf .olt main_v4 main_v5
  let main_c_1 : IVec S_ 1 := constantI S_ 1 1#1
  let main_v7 : IVec S_ 1 := (fun x v => Host.reduce IntOp.andi x v reducesTo_S8x2048x64_S_d0_1_2 h_S_) main_v6 main_c_1
  let main_v8 : IVec S_ 1 := andi main_v3 main_v7
  let main_v9 : FVec F S8x2048x64 .f32 := Host.absf main_arg2
  let main_cst_2 : FVec F S_ .f32 := constant S_ .f32 0x7F800000#32
  let main_v10 : FVec F S8x2048x64 .f32 := broadcastInDim S8x2048x64 ![] bcast_S_S8x2048x64 main_cst_2
  let main_v11 : IVec S8x2048x64 1 := cmpf .olt main_v9 main_v10
  let main_c_3 : IVec S_ 1 := constantI S_ 1 1#1
  let main_v12 : IVec S_ 1 := (fun x v => Host.reduce IntOp.andi x v reducesTo_S8x2048x64_S_d0_1_2 h_S_) main_v11 main_c_3
  let main_v13 : IVec S_ 1 := andi main_v8 main_v12
  let main_v14 : FVec F S8x2048x2048 .f32 := Host.absf main_arg3
  let main_cst_4 : FVec F S_ .f32 := constant S_ .f32 0x7F800000#32
  let main_v15 : FVec F S8x2048x2048 .f32 := broadcastInDim S8x2048x2048 ![] bcast_S_S8x2048x2048 main_cst_4
  let main_v16 : IVec S8x2048x2048 1 := cmpf .olt main_v14 main_v15
  fn_part1 (F := F) main_v13 main_v16
-- ==== Kernel.lean ====
abbrev S8x2048x64 : Shape := ⟨3, ![8, 2048, 64]⟩
abbrev S8x2048x2048 : Shape := ⟨3, ![8, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S64x2048 : Shape := ⟨2, ![64, 2048]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S8x2048x64, .f32⟩
  | .hbm, ⟨1, _⟩ => ⟨S8x2048x64, .f32⟩
  | .hbm, ⟨2, _⟩ => ⟨S8x2048x64, .f32⟩
  | .hbm, ⟨3, _⟩ => ⟨S8x2048x2048, .f32⟩
  | .hbm, ⟨4, _⟩ => ⟨S8x2048x64, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x2048, .f32⟩
  | .local _ .vmem, ⟨7, _⟩ => ⟨S1x512x2048, .f32⟩
  | .local _ .vmem, ⟨8, _⟩ => ⟨S1x512x64, .f32⟩
  | .local _ .vmem, ⟨9, _⟩ => ⟨S1x512x64, .f32⟩
  | _, _ => ⟨S8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  bitsLt_bf16_f32 : FTy.bits .bf16 < FTy.bits .f32
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  shapeCasts_S512x64_S1x512x64 : S512x64.ShapeCasts S1x512x64
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S8x2048x64.size a
  hwx0_0 : ∀ i : grid0.Coords, EltTy.bits .f32 = 32 ∨ (Rect.block (s := S8x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S8x2048x64.size a
  hwx0_1 : ∀ i : grid0.Coords, EltTy.bits .f32 = 32 ∨ (Rect.block (s := S8x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S8x2048x64.size a
  hwx0_2 : ∀ i : grid0.Coords, EltTy.bits .f32 = 32 ∨ (Rect.block (s := S8x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S8x2048x2048.size a
  hwx0_3 : ∀ i : grid0.Coords, EltTy.bits .f32 = 32 ∨ (Rect.block (s := S8x2048x2048) S1x512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S8x2048x64.size a
  hwx0_4 : ∀ i : grid0.Coords, EltTy.bits .f32 = 32 ∨ (Rect.block (s := S8x2048x64) S1x512x64.size (cc0_transform_4 i) (hinb0_4 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x64 : Shape := ⟨3, ![8, 2048, 64]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 31
  | .vmem => 0
  | .smem => 0
  | _ => 0

abbrev bufTy : (tb : Table) → Fin (tcTables nBuf tb) → BufTy
  | .hbm, ⟨0, _⟩ => ⟨S8x2048x64, .f32⟩
  | .hbm, ⟨1, _⟩ => ⟨S8x2048x64, .f32⟩
  | .hbm, ⟨2, _⟩ => ⟨S8x2048x64, .f32⟩
  | .hbm, ⟨3, _⟩ => ⟨S8x2048x2048, .f32⟩
  | .hbm, ⟨4, _⟩ => ⟨S8x2048x2048, .f32⟩
  | .hbm, ⟨5, _⟩ => ⟨S_, .f32⟩
  | .hbm, ⟨6, _⟩ => ⟨S8x2048x2048, .f32⟩
  | .hbm, ⟨7, _⟩ => ⟨S8x2048x2048, .f32⟩
  | .hbm, ⟨8, _⟩ => ⟨S_, .f32⟩
  | .hbm, ⟨9, _⟩ => ⟨S8x2048x2048, .f32⟩
  | .hbm, ⟨10, _⟩ => ⟨S8x2048x2048, .i1⟩
  | .hbm, ⟨11, _⟩ => ⟨S8x2048x2048, .f32⟩
  | .hbm, ⟨12, _⟩ => ⟨S_, .f32⟩
  | .hbm, ⟨13, _⟩ => ⟨S8x2048, .f32⟩
  | .hbm, ⟨14, _⟩ => ⟨S_, .f32⟩
  | .hbm, ⟨15, _⟩ => ⟨S8x2048, .f32⟩
  | .hbm, ⟨16, _⟩ => ⟨S8x2048, .f32⟩
  | .hbm, ⟨17, _⟩ => ⟨S8x2048x1, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S_, .f32⟩
  | .hbm, ⟨22, _⟩ => ⟨S8x2048, .f32⟩
  | .hbm, ⟨23, _⟩ => ⟨S8x2048x1, .f32⟩
  | .hbm, ⟨24, _⟩ => ⟨S8x2048x2048, .f32⟩
  | .hbm, ⟨25, _⟩ => ⟨S8x2048x2048, .f32⟩
  | .hbm, ⟨26, _⟩ => ⟨S8x2048x2048, .i1⟩
  | .hbm, ⟨27, _⟩ => ⟨S_, .f32⟩
  | .hbm, ⟨28, _⟩ => ⟨S8x2048x2048, .f32⟩
  | .hbm, ⟨29, _⟩ => ⟨S8x2048x2048, .f32⟩
  | .hbm, ⟨30, _⟩ => ⟨S8x2048x64, .f32⟩
  | _, _ => ⟨S8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_call1_v0 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.AttnSpec.lean ====
/-
  Masked softmax attention, one query row at a time, over the extended reals.

  For a batch `b` and a query row `r` the result row is
      out[b, r, d] = ∑ₖ attn[k] · V[b, k, d],        attn[k] = w[k] / ∑ₖ' w[k'],
      w[k] = exp (s[k] - maxₖ' s[k']),               s[k] = if M[b, r, k] < -1 then M[b, r, k] else (∑_d Q[b, r, d] · K[b, k, d]) · (1/8),
  with the maximum folded from `-∞`. Every operation is the extended reals' own (the quotient is `Ideal.div`, the
  exponential `Ideal.exp`), so the definition makes sense on every input, and both programs compute it operation
  by operation: no algebraic law beyond the order-independence of a finite sum and of a finite maximum is needed to
  compare them. The three float literals are kept as the words the programs print (`-1`, `1/8`, `-∞`); the same
  word stands on both sides and is never evaluated.
-/
import Idealize.ShloMosaic.PureOps.Ideal
import Idealize.ShloMosaic.PureOps.Ideal.Laws
import Idealize.ShloMosaic.Lib.ValueIdx

noncomputable section

open scoped BigOperators

namespace Cert.AttnSpec

open Idealize.ShloMosaic Idealize.ShloMosaic.ValueIdx

/-- The masked, scaled score of key `k` for one query row `q`: the mask's own value where it is below `-1`, else
    the inner product of the query row with key row `k`, times `1/8`. -/
def score (q : Fin 64 → EReal) (K : Fin 2048 → Fin 64 → EReal) (msk : Fin 2048 → EReal) (k : Fin 2048) : EReal :=
  Scalar.select (Ideal.cmp .olt (msk k) (Ideal.ofBits .f32 0xBF800000#32)) (msk k)
    ((∑ d : Fin 64, q d * K k d) * Ideal.ofBits .f32 0x3E000000#32)

/-- The row's largest score, folded from `-∞`. -/
def rowMax (q : Fin 64 → EReal) (K : Fin 2048 → Fin 64 → EReal) (msk : Fin 2048 → EReal) : EReal :=
  (Finset.univ : Finset (Fin 2048)).fold max (Ideal.ofBits .f32 0xFF800000#32) (score q K msk)

/-- The unnormalized softmax weight of key `k`: `exp (score - rowMax)`. -/
def weight (q : Fin 64 → EReal) (K : Fin 2048 → Fin 64 → EReal) (msk : Fin 2048 → EReal) (k : Fin 2048) : EReal :=
  Ideal.exp (score q K msk k - rowMax q K msk)

/-- The softmax weight of key `k`: its weight over the row's total weight. -/
def attn (q : Fin 64 → EReal) (K : Fin 2048 → Fin 64 → EReal) (msk : Fin 2048 → EReal) (k : Fin 2048) : EReal :=
  Ideal.div (weight q K msk k) (∑ k' : Fin 2048, weight q K msk k')

/-- One result row: the softmax-weighted sum of the value rows. -/
def rowOut (q : Fin 64 → EReal) (K V : Fin 2048 → Fin 64 → EReal) (msk : Fin 2048 → EReal) (d : Fin 64) : EReal :=
  ∑ k : Fin 2048, attn q K msk k * V k d

/-- The whole result `[8, 2048, 64]` as one function of the four argument arrays: entry `(b, r, d)` is row `r` of
    batch `b`'s attention, read at column `d`. -/
def G (Q K V : (⟨3, ![8, 2048, 64]⟩ : Shape).Idx → EReal) (M : (⟨3, ![8, 2048, 2048]⟩ : Shape).Idx → EReal) :
    (⟨3, ![8, 2048, 64]⟩ : Shape).Idx → EReal := fun i =>
  rowOut (fun d => Q (ix3 (i 0) (i 1) d)) (fun k d => K (ix3 (i 0) k d)) (fun k d => V (ix3 (i 0) k d))
    (fun k => M (ix3 (i 0) (i 1) k)) (i 2)

/-- A maximum folded from a starting value is at least that value, so taking the maximum with it again changes
    nothing. -/
theorem max_init_fold {ι : Type} (s : Finset ι) (b : EReal) (f : ι → EReal) : max b (s.fold max b f) = s.fold max b f :=
  max_eq_right ((Finset.le_fold_max b).2 (Or.inl le_rfl))

end Cert.AttnSpec

end
-- ==== Proof.RefIsSpec.lean ====
/-
  The reference program's result, read one operation at a time, is the masked softmax attention of `AttnSpec.G`.

  The reference computes, over whole `[8, 2048, 2048]` arrays, the scores `Q Kᵀ · (1/8)` (a batched contraction over the
  feature axis), the mask substitution, the row maximum (a fold of `max` from `-∞`, then once more the maximum with
  `-∞`, which changes nothing), the exponentials, their row sums (from `0`), the quotient, a replacement of entries
  that differ from themselves by `0` (no extended real differs from itself, so nothing is replaced), and the batched
  contraction with the values over the key axis. At an index `(b, r, k)` or `(b, r)` each stage is the matching
  quantity of query row `(b, r)`.
-/
import proofs.«159427_j58944131170381_2_alg».proof.Proof.Gen.ReferenceIdeal.Read
import proofs.«159427_j58944131170381_2_alg».proof.Proof.AttnSpec
import Idealize.ShloMosaic.PureOps.Ideal.Laws
import Idealize.ShloMosaic.Lib.ValueIdx

noncomputable section

open scoped BigOperators

namespace Cert.ReferenceIdeal.RefSpec

open Cert.ReferenceIdeal Cert.ReferenceIdeal.Gen Cert.ReferenceIdeal.Read Idealize.ShloMosaic Idealize.ShloMosaic.ValueIdx
open Cert.AttnSpec

variable (x0 x1 x2 : (⟨S8x2048x64, .f32⟩ : BufTy).Contents (Elt Ideal)) (x3 : (⟨S8x2048x2048, .f32⟩ : BufTy).Contents (Elt Ideal))

/-- Query row `(b, r)`, batch `b`'s key and value matrices, and mask row `(b, r)`, cut out of the whole arrays. -/
abbrev qrow (b : Fin 8) (r : Fin 2048) : Fin 64 → EReal := fun d => x0 (ix3 b r d)
abbrev kmat (b : Fin 8) : Fin 2048 → Fin 64 → EReal := fun k d => x1 (ix3 b k d)
abbrev vmat (b : Fin 8) : Fin 2048 → Fin 64 → EReal := fun k d => x2 (ix3 b k d)
abbrev mrow (b : Fin 8) (r : Fin 2048) : Fin 2048 → EReal := fun k => x3 (ix3 b r k)

/-- The masked score array at `(b, r, k)` is row `(b, r)`'s score of key `k`. -/
theorem masked_apply (b : Fin 8) (r k : Fin 2048) :
    val_main_v5 (F := Ideal) x0 x1 x3 (ix3 b r k) = score (qrow x0 b r) (kmat x1 b) (mrow x3 b r) k := by
  have el : ∀ d : Fin 64, lidx_main_v0 (ix3 b r k) d = ix3 b r d := fun d =>
    funext fun a => Fin.ext (by match a with | ⟨0, _⟩ => rfl | ⟨1, _⟩ => rfl | ⟨2, _⟩ => rfl)
  have er : ∀ d : Fin 64, ridx_main_v0 (ix3 b r k) d = ix3 b k d := fun d =>
    funext fun a => Fin.ext (by match a with | ⟨0, _⟩ => rfl | ⟨1, _⟩ => rfl | ⟨2, _⟩ => rfl)
  rw [val_main_v5_apply, val_main_v4_apply, val_main_v3_apply, val_main_cst_0_apply, val_main_v2_apply, val_main_v0_apply,
    val_main_v1_apply, val_main_cst_apply]
  simp only [el, er]
  rfl

/-- The row maximum at `(b, r)`: the fold over the key axis, and the extra maximum with `-∞` absorbed. -/
theorem rowmax_apply (b : Fin 8) (r : Fin 2048) :
    val_main_v8 (F := Ideal) x0 x1 x3 (ix2 b r) = rowMax (qrow x0 b r) (kmat x1 b) (mrow x3 b r) := by
  have hred : S8x2048x2048.Reduces [2] S8x2048 := by decide
  have hl : ∀ k : Fin 2048, hred.lift (ix2 b r) k = ix3 b r k := fun k =>
    funext fun a => Fin.ext (by match a with | ⟨0, _⟩ => rfl | ⟨1, _⟩ => rfl | ⟨2, _⟩ => rfl)
  rw [val_main_v8_apply, val_main_v7_apply, val_main_cst_2_apply]
  have key := Host.reduce_eq_fold_single (FloatOps.maximumf (F := Ideal) (φ := .f32))
    (val_main_v5 (F := Ideal) x0 x1 x3 : FVec Ideal S8x2048x2048 .f32) (val_main_cst_1 (F := Ideal))
    reducesTo_S8x2048x2048_S8x2048_d2 hred h_S_ (ix2 b r)
  unfold val_main_v6
  rw [key, val_main_cst_1_apply]
  refine (max_init_fold (Finset.univ : Finset (Fin 2048)) (Ideal.ofBits .f32 0xFF800000#32)
    (fun k : Fin 2048 => val_main_v5 (F := Ideal) x0 x1 x3 (hred.lift (ix2 b r) k))).trans ?_
  unfold rowMax
  refine Finset.fold_congr fun k _ => ?_
  show val_main_v5 (F := Ideal) x0 x1 x3 (hred.lift (ix2 b r) k) = _
  rw [hl k, masked_apply]

/-- The exponential array at `(b, r, k)` is row `(b, r)`'s unnormalized weight of key `k`. -/
theorem weight_apply (b : Fin 8) (r k : Fin 2048) :
    val_main_v12 (F := Ideal) x0 x1 x3 (ix3 b r k) = weight (qrow x0 b r) (kmat x1 b) (mrow x3 b r) k := by
  have e9 : idx_main_v9 (idx_main_v10 (ix3 b r k)) = ix2 b r :=
    funext fun a => Fin.ext (by match a with | ⟨0, _⟩ => rfl | ⟨1, _⟩ => rfl)
  rw [val_main_v12_apply, val_main_v11_apply, val_main_v10_apply, val_main_v9_apply, e9, rowmax_apply, masked_apply]
  rfl

/-- The row sum at `(b, r)`: the total weight (the sum starts from the word `0`). -/
theorem total_apply (b : Fin 8) (r : Fin 2048) :
    val_main_v13 (F := Ideal) x0 x1 x3 (ix2 b r) = ∑ k : Fin 2048, weight (qrow x0 b r) (kmat x1 b) (mrow x3 b r) k := by
  have hi : ∀ k : Fin 2048, idx_main_v13 (ix2 b r) k = ix3 b r k := fun k =>
    funext fun a => Fin.ext (by match a with | ⟨0, _⟩ => rfl | ⟨1, _⟩ => rfl | ⟨2, _⟩ => rfl)
  rw [val_main_v13_apply, val_main_cst_3_apply]
  show Ideal.ofBits .f32 0x00000000#32 + _ = _
  rw [Ideal.ofBits_zero_f32, zero_add]
  refine Finset.sum_congr rfl fun k _ => ?_
  rw [hi k, weight_apply]

/-- The array the last contraction reads, at `(b, r, k)`, is row `(b, r)`'s softmax weight of key `k`: the quotient,
    and the replacement of self-unequal entries replaces nothing. -/
theorem attn_apply (b : Fin 8) (r k : Fin 2048) :
    val_main_v18 (F := Ideal) x0 x1 x3 (ix3 b r k) = attn (qrow x0 b r) (kmat x1 b) (mrow x3 b r) k := by
  have e14 : idx_main_v14 (idx_main_v15 (ix3 b r k)) = ix2 b r :=
    funext fun a => Fin.ext (by match a with | ⟨0, _⟩ => rfl | ⟨1, _⟩ => rfl)
  have hne : ∀ a : EReal, FloatOps.cmpf (F := Ideal) (φ := .f32) .une a a = 0#1 := fun a => by
    show Ideal.cmp .une a a = 0#1
    simp [Ideal.cmp]
  rw [val_main_v18_apply, val_main_v17_apply, hne, select_zero, val_main_v16_apply, val_main_v15_apply, val_main_v14_apply, e14,
    total_apply, weight_apply]
  rfl

/-- The reference's result is `G` of its four arguments. -/
theorem result_eq : val_main_v19 (F := Ideal) x0 x1 x2 x3 = G x0 x1 x2 x3 := by
  funext i
  obtain ⟨b, r, d, rfl⟩ : ∃ (b : Fin 8) (r : Fin 2048) (d : Fin 64), i = ix3 b r d := ⟨i 0, i 1, i 2, eq_ix3 i⟩
  have el : ∀ k : Fin 2048, lidx_main_v19 (ix3 b r d) k = ix3 b r k := fun k =>
    funext fun a => Fin.ext (by match a with | ⟨0, _⟩ => rfl | ⟨1, _⟩ => rfl | ⟨2, _⟩ => rfl)
  have er : ∀ k : Fin 2048, ridx_main_v19 (ix3 b r d) k = ix3 b k d := fun k =>
    funext fun a => Fin.ext (by match a with | ⟨0, _⟩ => rfl | ⟨1, _⟩ => rfl | ⟨2, _⟩ => rfl)
  rw [val_main_v19_apply]
  show _ = rowOut (qrow x0 b r) (kmat x1 b) (vmat x2 b) (mrow x3 b r) d
  unfold rowOut
  refine Finset.sum_congr rfl fun k _ => ?_
  rw [el k, er k, attn_apply]

end Cert.ReferenceIdeal.RefSpec

end
-- ==== Proof.BlockRow.lean ====
/-
  One grid point's body, read at an index: a block of 512 query rows against one batch's 2048 keys and values.

  The body takes a `[1, 512, 64]` block of queries, the batch's `[1, 2048, 64]` keys and values and a `[1, 512, 2048]`
  block of the mask, drops the unit axis, multiplies the queries by the transposed keys on the matrix unit (into a
  zero accumulator), scales by `1/8`, substitutes the mask, takes each row's maximum and subtracts it, exponentiates,
  divides by each row's sum, multiplies by the values on the matrix unit, and puts the unit axis back. At the
  extended reals the changes of float format are the identity, a matrix product read at an index is the sum of
  products over the contracted axis, and a row reduction is a fold (a sum) over the row; so row `r` of the result
  is `AttnSpec.rowOut` of row `r` of the query and mask blocks and of the key and value blocks.
-/
import proofs.«159427_j58944131170381_2_alg».proof.Proof.Gen.KernelIdeal.Skeleton
import proofs.«159427_j58944131170381_2_alg».proof.Proof.AttnSpec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.BlockRow

open Cert.KernelIdeal Cert.KernelIdeal.Gen Idealize.ShloMosaic Idealize.ShloMosaic.ValueIdx
open Cert.AttnSpec

/-! ## The operations that are not pointwise, each read at an index -/

theorem lhs1_0 (j : S512x2048.Idx) (q : dot_S512x64_S64x2048_S512x2048_1_0_0_1_n_n.contr.Idx) : (dot_S512x64_S64x2048_S512x2048_1_0_0_1_n_n.lhsIdx j q 0).val = (j 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl
theorem lhs1_1 (j : S512x2048.Idx) (q : dot_S512x64_S64x2048_S512x2048_1_0_0_1_n_n.contr.Idx) : (dot_S512x64_S64x2048_S512x2048_1_0_0_1_n_n.lhsIdx j q 1).val = (q ⟨0, by decide⟩).val :=
  dot_S512x64_S64x2048_S512x2048_1_0_0_1_n_n.lhsIdx_val_of_single rfl j q
theorem rhs1_0 (j : S512x2048.Idx) (q : dot_S512x64_S64x2048_S512x2048_1_0_0_1_n_n.contr.Idx) : (dot_S512x64_S64x2048_S512x2048_1_0_0_1_n_n.rhsIdx j q 0).val = (q ⟨0, by decide⟩).val :=
  dot_S512x64_S64x2048_S512x2048_1_0_0_1_n_n.rhsIdx_val_of_single rfl j q
theorem rhs1_1 (j : S512x2048.Idx) (q : dot_S512x64_S64x2048_S512x2048_1_0_0_1_n_n.contr.Idx) : (dot_S512x64_S64x2048_S512x2048_1_0_0_1_n_n.rhsIdx j q 1).val = (j 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl

/-- The score product `[512, 64] · [64, 2048]` into zero, at `(r, k)`: the sum over the 64 features. -/
theorem scoreProduct_apply (a : FVec Ideal S512x64 .bf16) (bT : FVec Ideal S64x2048 .bf16) (r : Fin 512) (k : Fin 2048) :
    matmul dot_S512x64_S64x2048_S512x2048_1_0_0_1_n_n none a bT (constant (F := Ideal) S512x2048 .f32 0x00000000#32) (ix2 r k)
      = ∑ d : Fin 64, a (ix2 r d) * bT (ix2 d k) := by
  simp only [matmul]
  rw [Ideal.matmul_constant_zero_apply, ← Equiv.sum_comp (contrEquiv1 dot_S512x64_S64x2048_S512x2048_1_0_0_1_n_n 64 rfl rfl).symm]
  refine Finset.sum_congr rfl fun d _ => ?_
  have hd := contrEquiv1_symm_val dot_S512x64_S64x2048_S512x2048_1_0_0_1_n_n 64 rfl rfl d
  have el : dot_S512x64_S64x2048_S512x2048_1_0_0_1_n_n.lhsIdx (ix2 r k) ((contrEquiv1 dot_S512x64_S64x2048_S512x2048_1_0_0_1_n_n 64 rfl rfl).symm d) = ix2 r d := funext fun c => Fin.ext (by
    match c with
    | ⟨0, _⟩ => exact lhs1_0 _ _
    | ⟨1, _⟩ => exact (lhs1_1 _ _).trans hd)
  have er : dot_S512x64_S64x2048_S512x2048_1_0_0_1_n_n.rhsIdx (ix2 r k) ((contrEquiv1 dot_S512x64_S64x2048_S512x2048_1_0_0_1_n_n 64 rfl rfl).symm d) = ix2 d k := funext fun c => Fin.ext (by
    match c with
    | ⟨0, _⟩ => exact (rhs1_0 _ _).trans hd
    | ⟨1, _⟩ => exact rhs1_1 _ _)
  rw [el, er]

theorem lhs2_0 (j : S512x64.Idx) (q : dot_S512x2048_S2048x64_S512x64_1_0_0_1_n_n.contr.Idx) : (dot_S512x2048_S2048x64_S512x64_1_0_0_1_n_n.lhsIdx j q 0).val = (j 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem lhs2_1 (j : S512x64.Idx) (q : dot_S512x2048_S2048x64_S512x64_1_0_0_1_n_n.contr.Idx) : (dot_S512x2048_S2048x64_S512x64_1_0_0_1_n_n.lhsIdx j q 1).val = (q ⟨0, by decide⟩).val :=
  dot_S512x2048_S2048x64_S512x64_1_0_0_1_n_n.lhsIdx_val_of_single rfl j q
theorem rhs2_0 (j : S512x64.Idx) (q : dot_S512x2048_S2048x64_S512x64_1_0_0_1_n_n.contr.Idx) : (dot_S512x2048_S2048x64_S512x64_1_0_0_1_n_n.rhsIdx j q 0).val = (q ⟨0, by decide⟩).val :=
  dot_S512x2048_S2048x64_S512x64_1_0_0_1_n_n.rhsIdx_val_of_single rfl j q
theorem rhs2_1 (j : S512x64.Idx) (q : dot_S512x2048_S2048x64_S512x64_1_0_0_1_n_n.contr.Idx) : (dot_S512x2048_S2048x64_S512x64_1_0_0_1_n_n.rhsIdx j q 1).val = (j 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The value product `[512, 2048] · [2048, 64]` into zero, at `(r, d)`: the sum over the 2048 keys. -/
theorem valueProduct_apply (p : FVec Ideal S512x2048 .bf16) (v : FVec Ideal S2048x64 .bf16) (r : Fin 512) (d : Fin 64) :
    matmul dot_S512x2048_S2048x64_S512x64_1_0_0_1_n_n none p v (constant (F := Ideal) S512x64 .f32 0x00000000#32) (ix2 r d)
      = ∑ k : Fin 2048, p (ix2 r k) * v (ix2 k d) := by
  simp only [matmul]
  rw [Ideal.matmul_constant_zero_apply, ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r d) ((contrEquiv1 dot_S512x2048_S2048x64_S512x64_1_0_0_1_n_n 2048 rfl rfl).symm k) = ix2 r k := funext fun c => Fin.ext (by
    match c with
    | ⟨0, _⟩ => exact lhs2_0 _ _
    | ⟨1, _⟩ => exact (lhs2_1 _ _).trans hk)
  have er : dot_S512x2048_S2048x64_S512x64_1_0_0_1_n_n.rhsIdx (ix2 r d) ((contrEquiv1 dot_S512x2048_S2048x64_S512x64_1_0_0_1_n_n 2048 rfl rfl).symm k) = ix2 k d := funext fun c => Fin.ext (by
    match c with
    | ⟨0, _⟩ => exact (rhs2_0 _ _).trans hk
    | ⟨1, _⟩ => exact rhs2_1 _ _)
  rw [el, er]

/-- A matrix's row maximum from `-∞`, at row `r`: the fold of `max` over the row's entries. -/
theorem rowMaximum_apply (s : FVec Ideal S512x2048 .f32) (r : Fin 512) :
    multiReduction (F := Ideal) .maximumf [1] S512 s 0xFF800000#32 reduces_S512x2048_S512 (.inl rfl) rfl (ix1 r)
      = (Finset.univ : Finset (Fin 2048)).fold max (Ideal.ofBits .f32 0xFF800000#32) (fun k => s (ix2 r k)) := by
  refine (Ideal.multiReduction_maximumf_single s 0xFF800000#32 reduces_S512x2048_S512 (.inl rfl) rfl (ix1 r)).trans ?_
  refine Finset.fold_congr fun k _ => ?_
  exact congrArg s (funext fun c => Fin.ext (by match c with | ⟨0, _⟩ => rfl | ⟨1, _⟩ => rfl))

/-- A matrix's row sum, at row `r`: the sum of the row's entries. -/
theorem rowSum_apply (w : FVec Ideal S512x2048 .f32) (r : Fin 512) :
    multiReduction (F := Ideal) .add [1] S512 w 0x00000000#32 reduces_S512x2048_S512 (.inl rfl) rfl (ix1 r)
      = ∑ k : Fin 2048, w (ix2 r k) := by
  refine (Ideal.multiReduction_add_single w 0x00000000#32 reduces_S512x2048_S512 (.inl rfl) rfl (ix1 r)).trans ?_
  refine Finset.sum_congr rfl fun k _ => ?_
  exact congrArg w (funext fun c => Fin.ext (by match c with | ⟨0, _⟩ => rfl | ⟨1, _⟩ => rfl))

/-- A per-row value `[512]` made a column `[512, 1]` and spread over the 2048 columns reads, at `(r, k)`, the value
    of row `r`. -/
theorem column_apply {α : Type} (c : S512.Idx → α) (r : Fin 512) (k : Fin 2048) :
    broadcastTo S512x2048 (shapeCast S512x1 c shapeCasts_S512_S512x1) broadcasts_S512x1_S512x2048 (ix2 r k) = c (ix1 r) := by
  refine (broadcastTo_apply _ broadcasts_S512x1_S512x2048 (ix2 r k) (ix2 r (0 : Fin 1)) (fun a => ?_)).trans ?_
  · match a with
    | ⟨0, _⟩ => show r.val = if (512 : Nat) = 1 then 0 else r.val; rw [if_neg (by decide)]
    | ⟨1, _⟩ => show 0 = if (1 : Nat) = 1 then 0 else k.val; rw [if_pos rfl]
  · exact shapeCast_apply c shapeCasts_S512_S512x1 (ix2 r (0 : Fin 1)) (ix1 r) (by
      rw [Shape.rowMajor_val_one, Shape.rowMajor_val_two]
      show r.val = r.val * 1 + 0
      omega)

/-! ## The body's value, stage by stage -/

variable (x0 : Vec Ideal S1x512x64 .f32) (x1 x2 : Vec Ideal S1x2048x64 .f32) (x3 : Vec Ideal S1x512x2048 .f32)

/-- Row `r` of the query block, the key and value blocks as matrices, and row `r` of the mask block. -/
abbrev qrow (r : Fin 512) : Fin 64 → EReal := fun d => x0 (ix3 (0 : Fin 1) r d)
abbrev kmat : Fin 2048 → Fin 64 → EReal := fun k d => x1 (ix3 (0 : Fin 1) k d)
abbrev vmat : Fin 2048 → Fin 64 → EReal := fun k d => x2 (ix3 (0 : Fin 1) k d)
abbrev mrow (r : Fin 512) : Fin 2048 → EReal := fun k => x3 (ix3 (0 : Fin 1) r k)

/-- The block's masked, scaled scores `[512, 2048]`, in the body's own operations. -/
def blkScores : FVec Ideal S512x2048 .f32 :=
  select (cmpf .olt (shapeCast S512x2048 x3 shapeCasts_S1x512x2048_S512x2048) (broadcast S512x2048 (Scalar.ofBits (F := Ideal) .f32 0xBF800000#32)))
    (shapeCast S512x2048 x3 shapeCasts_S1x512x2048_S512x2048)
    (mulf
      (matmul dot_S512x64_S64x2048_S512x2048_1_0_0_1_n_n none
        (truncf .bf16 (shapeCast S512x64 x0 shapeCasts_S1x512x64_S512x64) bitsLt_bf16_f32)
        (transpose S64x2048 [1, 0] (truncf .bf16 (shapeCast S2048x64 x1 shapeCasts_S1x2048x64_S2048x64) bitsLt_bf16_f32) transposes_S2048x64_p1_0_S64x2048)
        (constant (F := Ideal) S512x2048 .f32 0x00000000#32))
      (broadcast S512x2048 (Scalar.ofBits (F := Ideal) .f32 0x3E000000#32)))

/-- The block's unnormalized softmax weights: the exponential of each score less its row's maximum. -/
def blkWeights : FVec Ideal S512x2048 .f32 :=
  exp (subf (blkScores x0 x1 x3)
    (broadcastTo S512x2048 (shapeCast S512x1
      (multiReduction (F := Ideal) .maximumf [1] S512 (blkScores x0 x1 x3) 0xFF800000#32 reduces_S512x2048_S512 (.inl rfl) rfl)
      shapeCasts_S512_S512x1) broadcasts_S512x1_S512x2048))

/-- The block's softmax weights: each weight over its row's sum. -/
def blkAttn : FVec Ideal S512x2048 .f32 :=
  divf (blkWeights x0 x1 x3)
    (broadcastTo S512x2048 (shapeCast S512x1
      (multiReduction (F := Ideal) .add [1] S512 (blkWeights x0 x1 x3) 0x00000000#32 reduces_S512x2048_S512 (.inl rfl) rfl)
      shapeCasts_S512_S512x1) broadcasts_S512x1_S512x2048)

/-- The body's stored value is the product of those weights with the value block, with the unit axis put back. -/
theorem payload_eq : k0_pay1 (F := Ideal) x0 x1 x2 x3
    = shapeCast S1x512x64
        (matmul dot_S512x2048_S2048x64_S512x64_1_0_0_1_n_n none (truncf .bf16 (blkAttn x0 x1 x3) bitsLt_bf16_f32)
          (truncf .bf16 (shapeCast S2048x64 x2 shapeCasts_S1x2048x64_S2048x64) bitsLt_bf16_f32)
          (constant (F := Ideal) S512x64 .f32 0x00000000#32))
        shapeCasts_S512x64_S1x512x64 := rfl

theorem blkScores_apply (r : Fin 512) (k : Fin 2048) :
    blkScores x0 x1 x3 (ix2 r k) = score (qrow x0 r) (kmat x1) (mrow x3 r) k := by
  have e3 : shapeCast S512x2048 x3 shapeCasts_S1x512x2048_S512x2048 (ix2 r k) = x3 (ix3 (0 : Fin 1) r k) :=
    shapeCast_1ab_ab_apply x3 _ r k
  have em : matmul dot_S512x64_S64x2048_S512x2048_1_0_0_1_n_n none
        (truncf .bf16 (shapeCast S512x64 x0 shapeCasts_S1x512x64_S512x64) bitsLt_bf16_f32)
        (transpose S64x2048 [1, 0] (truncf .bf16 (shapeCast S2048x64 x1 shapeCasts_S1x2048x64_S2048x64) bitsLt_bf16_f32) transposes_S2048x64_p1_0_S64x2048)
        (constant (F := Ideal) S512x2048 .f32 0x00000000#32) (ix2 r k)
      = ∑ d : Fin 64, x0 (ix3 (0 : Fin 1) r d) * x1 (ix3 (0 : Fin 1) k d) := by
    refine (scoreProduct_apply _ _ r k).trans (Finset.sum_congr rfl fun d _ => ?_)
    rw [truncf_apply, shapeCast_1ab_ab_apply, transpose_ix2_apply, truncf_apply, shapeCast_1ab_ab_apply]
  unfold blkScores score
  rw [select_apply, cmpf_apply, mulf_apply, e3, em]
  rfl

theorem blkWeights_apply (r : Fin 512) (k : Fin 2048) :
    blkWeights x0 x1 x3 (ix2 r k) = weight (qrow x0 r) (kmat x1) (mrow x3 r) k := by
  unfold blkWeights weight rowMax
  show Ideal.exp (blkScores x0 x1 x3 (ix2 r k) - broadcastTo S512x2048 (shapeCast S512x1
      (multiReduction (F := Ideal) .maximumf [1] S512 (blkScores x0 x1 x3) 0xFF800000#32 reduces_S512x2048_S512 (.inl rfl) rfl)
      shapeCasts_S512_S512x1) broadcasts_S512x1_S512x2048 (ix2 r k)) = _
  rw [column_apply, rowMaximum_apply, blkScores_apply]
  simp only [blkScores_apply]

theorem blkAttn_apply (r : Fin 512) (k : Fin 2048) :
    blkAttn x0 x1 x3 (ix2 r k) = attn (qrow x0 r) (kmat x1) (mrow x3 r) k := by
  unfold blkAttn attn
  rw [divf_apply, column_apply, rowSum_apply, blkWeights_apply]
  simp only [blkWeights_apply]

/-- Row `r` of the stored block is the attention output of row `r` of the query and mask blocks. -/
theorem payload_apply (u : Fin 1) (r : Fin 512) (d : Fin 64) :
    k0_pay1 (F := Ideal) x0 x1 x2 x3 (ix3 u r d) = rowOut (qrow x0 r) (kmat x1) (vmat x2) (mrow x3 r) d := by
  rw [payload_eq, shapeCast_ab_1ab_apply, valueProduct_apply]
  unfold rowOut
  refine Finset.sum_congr rfl fun k _ => ?_
  rw [truncf_apply, blkAttn_apply, truncf_apply, shapeCast_1ab_ab_apply]

end Cert.KernelIdeal.BlockRow

end
-- ==== Proof.WholeArray.lean ====
/-
  From the grid's blocks to the whole result array.

  The grid has 8 × 4 points `(b, qi)`. Point `(b, qi)` reads query rows `512·qi … 512·qi + 511` of batch `b`, all of
  batch `b`'s keys and values, and the same rows of batch `b`'s mask, and writes rows `512·qi … 512·qi + 511` of batch
  `b` of the result. Row `r` of what it writes is the attention output of query row `512·qi + r` (`BlockRow`), which
  is entry `(b, 512·qi + r, ·)` of `AttnSpec.G` of the four argument arrays: so each point writes its block of `G`.
  The 32 blocks tile the `[8, 2048, 64]` array — row `i` of batch `b` lies in the block of point `(b, i / 512)` —, hence the
  array after the run is `G` of the arguments.
-/
import proofs.«159427_j58944131170381_2_alg».proof.Proof.Gen.KernelIdeal.Value
import proofs.«159427_j58944131170381_2_alg».proof.Proof.BlockRow
import proofs.«159427_j58944131170381_2_alg».proof.Proof.AttnSpec
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)
open Cert.AttnSpec

/-- A block whose query and mask rows are rows `o … o + 511` of batch `b` of whole arrays `Q`, `M`, and whose keys and
    values are batch `b` of `K`, `W`, yields at `(·, r, d)` entry `(b, o + r, d)` of `G Q K W M`. -/
theorem block_point (Q K W : (⟨3, ![8, 2048, 64]⟩ : Shape).Idx → EReal) (M : (⟨3, ![8, 2048, 2048]⟩ : Shape).Idx → EReal)
    (x0 : Vec Ideal S1x512x64 .f32) (x1 x2 : Vec Ideal S1x2048x64 .f32) (x3 : Vec Ideal S1x512x2048 .f32)
    (b : Fin 8) (o : Nat) (ho : o + 512 ≤ 2048)
    (h0 : ∀ (r : Fin 512) (d : Fin 64), x0 (ix3 (0 : Fin 1) r d) = Q (ix3 b ⟨o + r.val, by omega⟩ d))
    (h1 : ∀ (k : Fin 2048) (d : Fin 64), x1 (ix3 (0 : Fin 1) k d) = K (ix3 b k d))
    (h2 : ∀ (k : Fin 2048) (d : Fin 64), x2 (ix3 (0 : Fin 1) k d) = W (ix3 b k d))
    (h3 : ∀ (r : Fin 512) (k : Fin 2048), x3 (ix3 (0 : Fin 1) r k) = M (ix3 b ⟨o + r.val, by omega⟩ k))
    (u : Fin 1) (r : Fin 512) (d : Fin 64) :
    k0_pay1 (F := Ideal) x0 x1 x2 x3 (ix3 u r d) = G Q K W M (ix3 b ⟨o + r.val, by omega⟩ d) := by
  rw [BlockRow.payload_apply]
  have e0 : BlockRow.qrow x0 r = fun d => Q (ix3 b ⟨o + r.val, by omega⟩ d) := funext (h0 r)
  have e1 : BlockRow.kmat x1 = fun k d => K (ix3 b k d) := funext fun k => funext (h1 k)
  have e2 : BlockRow.vmat x2 = fun k d => W (ix3 b k d) := funext fun k => funext (h2 k)
  have e3 : BlockRow.mrow x3 r = fun k => M (ix3 b ⟨o + r.val, by omega⟩ k) := funext (h3 r)
  rw [e0, e1, e2, e3]
  rfl

variable (m : (ℓ : Loc nD τ sig) → Buf (Elt Ideal) ℓ) (ρ : Dev nD → PrngReg)

theorem origin3 : (![0, 0, 0] : Fin 3 → Nat) = fun _ => 0 := funext fun a => by fin_cases a <;> rfl

/-- The printed index maps, decided over the 32 grid points: the query and mask windows move with the output window
    on the batch and row-block axes, the key and value windows on the batch axis only, and every other block index
    is `0`; the output's batch index is below 8 and its row-block index below 4. -/
theorem index_facts : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = win0_4.index t (1 : Fin 3) ∧ win0_3.index t (2 : Fin 3) = 0
    ∧ win0_4.index t (0 : Fin 3) ≤ 7 ∧ win0_4.index t (1 : Fin 3) ≤ 3 ∧ win0_4.index t (2 : Fin 3) = 0 :=
  (by decide +kernel : ∀ t : Fin grid0.N, _)

/-- Every (batch, row block) pair is some grid point's output block. -/
theorem index_onto : ∀ (q0 : Fin 8) (q1 : Fin 4), ∃ t : Fin cfg0.N, win0_4.index t = ![q0.val, q1.val, 0] :=
  (by decide +kernel : ∀ (q0 : Fin 8) (q1 : Fin 4), ∃ t : Fin grid0.N, win0_4.index t = ![q0.val, q1.val, 0])

/-- What point `t` writes back is block `t` of `G` of the argument arrays. -/
theorem flushed_eq (c : Dev nD) (t : Fin cfg0.N) :
    (dats m 0 c).flushed 4 t = ((cfg0.win 4).blk t).view.read (Elt Ideal)
      (G (V m c main_arg0) (V m c main_arg1) (V m c main_arg2) (V m c main_arg3)) := by
  rw [Value.flushed4]
  unfold out0_4
  rw [View.canon_unit_zero origin3]
  simp only [View.ld_unit_zero (S := S1x512x64) origin3, View.ld_unit_zero (S := S1x2048x64) origin3,
    View.ld_unit_zero (S := S1x512x2048) origin3]
  obtain ⟨a00, a01, a02, a10, a11, a12, a20, a21, a22, a30, a31, a32, b0, b1, b2⟩ := index_facts t
  have hb : win0_4.index t (0 : Fin 3) < 8 := by omega
  have ho : win0_4.index t (1 : Fin 3) * 512 + 512 ≤ 2048 := by omega
  funext j
  show k0_pay1 (F := Ideal) (iblk m c 0 t) (iblk m c 1 t) (iblk m c 2 t) (iblk m c 3 t) j
    = G (V m c main_arg0) (V m c main_arg1) (V m c main_arg2) (V m c main_arg3) (((cfg0.win 4).blk t).view.emb j)
  refine (congrArg (k0_pay1 (F := Ideal) (iblk m c 0 t) (iblk m c 1 t) (iblk m c 2 t) (iblk m c 3 t))
    (eq_ix3 (n0 := 1) (n1 := 512) (n2 := 64) j)).trans ?_
  refine (block_point (V m c main_arg0) (V m c main_arg1) (V m c main_arg2) (V m c main_arg3)
    (iblk m c 0 t) (iblk m c 1 t) (iblk m c 2 t) (iblk m c 3 t)
    ⟨win0_4.index t (0 : Fin 3), hb⟩ (win0_4.index t (1 : Fin 3) * 512) ho ?_ ?_ ?_ ?_ (j 0) (j 1) (j 2)).trans ?_
  · intro r d
    show V m c main_arg0 (((cfg0.win 0).blk t).view.emb (ix3 (0 : Fin 1) r d)) = _
    refine congrArg (V m c main_arg0) (funext fun a => Fin.ext ?_)
    match a with
    | ⟨0, _⟩ => show win0_0.index t (0 : Fin 3) * 1 + 1 * 0 = win0_4.index t (0 : Fin 3); omega
    | ⟨1, _⟩ => show win0_0.index t (1 : Fin 3) * 512 + 1 * r.val = win0_4.index t (1 : Fin 3) * 512 + r.val; omega
    | ⟨2, _⟩ => show win0_0.index t (2 : Fin 3) * 64 + 1 * d.val = d.val; omega
  · intro k d
    show V m c main_arg1 (((cfg0.win 1).blk t).view.emb (ix3 (0 : Fin 1) k d)) = _
    refine congrArg (V m c main_arg1) (funext fun a => Fin.ext ?_)
    match a with
    | ⟨0, _⟩ => show win0_1.index t (0 : Fin 3) * 1 + 1 * 0 = win0_4.index t (0 : Fin 3); omega
    | ⟨1, _⟩ => show win0_1.index t (1 : Fin 3) * 2048 + 1 * k.val = k.val; omega
    | ⟨2, _⟩ => show win0_1.index t (2 : Fin 3) * 64 + 1 * d.val = d.val; omega
  · intro k d
    show V m c main_arg2 (((cfg0.win 2).blk t).view.emb (ix3 (0 : Fin 1) k d)) = _
    refine congrArg (V m c main_arg2) (funext fun a => Fin.ext ?_)
    match a with
    | ⟨0, _⟩ => show win0_2.index t (0 : Fin 3) * 1 + 1 * 0 = win0_4.index t (0 : Fin 3); omega
    | ⟨1, _⟩ => show win0_2.index t (1 : Fin 3) * 2048 + 1 * k.val = k.val; omega
    | ⟨2, _⟩ => show win0_2.index t (2 : Fin 3) * 64 + 1 * d.val = d.val; omega
  · intro r k
    show V m c main_arg3 (((cfg0.win 3).blk t).view.emb (ix3 (0 : Fin 1) r k)) = _
    refine congrArg (V m c main_arg3) (funext fun a => Fin.ext ?_)
    match a with
    | ⟨0, _⟩ => show win0_3.index t (0 : Fin 3) * 1 + 1 * 0 = win0_4.index t (0 : Fin 3); omega
    | ⟨1, _⟩ => show win0_3.index t (1 : Fin 3) * 512 + 1 * r.val = win0_4.index t (1 : Fin 3) * 512 + r.val; omega
    | ⟨2, _⟩ => show win0_3.index t (2 : Fin 3) * 2048 + 1 * k.val = k.val; omega
  · refine congrArg (G (V m c main_arg0) (V m c main_arg1) (V m c main_arg2) (V m c main_arg3)) (funext fun a => Fin.ext ?_)
    have hj0 : (j 0).val < 1 := (j 0).isLt
    match a with
    | ⟨0, _⟩ => show win0_4.index t (0 : Fin 3) = win0_4.index t (0 : Fin 3) * 1 + 1 * (j 0).val; omega
    | ⟨1, _⟩ => show win0_4.index t (1 : Fin 3) * 512 + (j 1).val = win0_4.index t (1 : Fin 3) * 512 + 1 * (j 1).val; omega
    | ⟨2, _⟩ => show (j 2).val = win0_4.index t (2 : Fin 3) * 64 + 1 * (j 2).val; omega

/-- An index of the array is in point `t`'s block iff each coordinate is in the block's range on its axis. -/
theorem mem_blk (t : Fin cfg0.N) (i : S8x2048x64.Idx) :
    i ∈ ((cfg0.win 4).blk t).view.set ↔ ∀ a : Fin 3, win0_4.index t a * S1x512x64.size a ≤ (i a).val ∧ (i a).val < win0_4.index t a * S1x512x64.size a + S1x512x64.size a := by
  show i ∈ ((View.whole main_v0).slice (win0_4.rect t)).set ↔ _
  rw [View.set_slice_whole, Rect.mem_set_unit]
  exact Iff.rfl

/-- Every index of the result lies in some point's block: entry `(b, i, d)` in the block of the point whose output
    block index is `(b, i / 512, 0)`. -/
theorem cover (i : S8x2048x64.Idx) : ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 64 := (i 2).isLt
  obtain ⟨t, ht⟩ := index_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 64 ≤ (i 2).val ∧ (i 2).val < win0_4.index t (2 : Fin 3) * 64 + 64; omega

/-- The result array after the run is `G` of the argument arrays. -/
theorem final (c : Dev nD) : (dats m 0 c).arrAt 4 cfg0.N
    = G (V m c main_arg0) (V m c main_arg1) (V m c main_arg2) (V m c main_arg3) :=
  (dats m 0 c).arrAt_eq_of_cover 4 (G (V m c main_arg0) (V m c main_arg1) (V m c main_arg2) (V m c main_arg3))
    (fun t _ => flushed_eq m c t) cover

/-- Every weakly fair execution of the idealized kernel ends with the result array at `G` of the argument arrays, and
    the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.lean ====
/-
  A batch of masked softmax attentions, `softmax(where(M < -1, M, Q Kᵀ / 8)) V` over `[8, 2048, ·]` arrays: a kernel that
  works through the result 512 query rows at a time against a reference that forms the whole `[8, 2048, 2048]` score
  array, compared over the extended reals.

  Both programs compute, for every batch `b` and query row `r`, the same sequence of operations on the extended
  reals (`AttnSpec`): the scores `(∑_d Q[b,r,d] · K[b,k,d]) · (1/8)`, the mask's own value substituted where it is
  below `-1`, the row maximum folded from `-∞`, the exponentials of the differences, their row sum, the quotient,
  and the weighted sum of the value rows. The kernel's changes of float format are the identity there, its matrix
  products into a zero accumulator and the reference's contractions are the same finite sums, and a row reduction is
  the same fold whichever program takes it; the reference's extra maximum with `-∞` and its replacement of entries
  unequal to themselves change nothing. So no law beyond the order-independence of finite sums and maxima is used,
  and the precondition (finite inputs) is never opened: the two results agree on every input.

  `RefIsSpec` reads the reference's run as `AttnSpec.G` of the arguments; `BlockRow` reads one grid point's body, row by
  row, as `AttnSpec.rowOut`; `WholeArray` assembles the 32 blocks into `AttnSpec.G`. The three frames are the generated
  ones (the reference's is its generated run with the result dropped), and there is nothing to preserve between the
  kernel and its idealization, whose texts are the same.
-/
import proofs.«159427_j58944131170381_2_alg».proof.Defs
import proofs.«159427_j58944131170381_2_alg».proof.Proof.Gen.Kernel
import proofs.«159427_j58944131170381_2_alg».proof.Proof.Gen.Kernel.Frame
import proofs.«159427_j58944131170381_2_alg».proof.Proof.Gen.KernelIdeal
import proofs.«159427_j58944131170381_2_alg».proof.Proof.Gen.KernelIdeal.Frame
import proofs.«159427_j58944131170381_2_alg».proof.Proof.Gen.KernelIdeal.Value
import proofs.«159427_j58944131170381_2_alg».proof.Proof.Gen.ReferenceIdeal
import proofs.«159427_j58944131170381_2_alg».proof.Proof.Gen.ReferenceIdeal.Run
import proofs.«159427_j58944131170381_2_alg».proof.Proof.Gen.ReferenceIdeal.Read
import proofs.«159427_j58944131170381_2_alg».proof.Proof.Gen.Pre_finite_inputs
import proofs.«159427_j58944131170381_2_alg».proof.Proof.AttnSpec
import proofs.«159427_j58944131170381_2_alg».proof.Proof.RefIsSpec
import proofs.«159427_j58944131170381_2_alg».proof.Proof.WholeArray
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with its arguments unchanged: its generated run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments, both programs end with the result array at `AttnSpec.G` of those
    arguments. -/
theorem algebraic : Cert.algebraic_KernelIdeal_ReferenceIdeal := by
  intro m ρ m' ρ' _ hagree
  refine ⟨fun c => Cert.AttnSpec.G (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefSpec.result_eq, (hagree c).1, (hagree c).2.1,
    (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
